-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel

variable [Facts]

def fn {F : FTy → Type} [FloatOps F] (main_arg0 : FVec F S64x256x56x56 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  main_v3
-- ==== Kernel.lean ====
abbrev S64x256x56x56 : Shape := ⟨4, ![64, 256, 56, 56]⟩
abbrev S51380224 : Shape := ⟨1, ![51380224]⟩
abbrev S401408x128 : Shape := ⟨2, ![401408, 128]⟩
abbrev S8192x128 : Shape := ⟨2, ![8192, 128]⟩

abbrev nBuf : Space → Nat
  | .hbm => 6
  | .vmem => 4
  | .smem => 0
  | _ => 0

abbrev bufTy : (tb : Table) → Fin (tcTables nBuf tb) → BufTy
  | .hbm, ⟨0, _⟩ => ⟨S64x256x56x56, .f32⟩
  | .hbm, ⟨1, _⟩ => ⟨S51380224, .f32⟩
  | .hbm, ⟨2, _⟩ => ⟨S401408x128, .f32⟩
  | .hbm, ⟨3, _⟩ => ⟨S401408x128, .f32⟩
  | .hbm, ⟨4, _⟩ => ⟨S51380224, .f32⟩
  | .hbm, ⟨5, _⟩ => ⟨S64x256x56x56, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x256x56x56_S51380224 : S64x256x56x56.ShapeCasts S51380224
  shapeCasts_S51380224_S401408x128 : S51380224.ShapeCasts S401408x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S401408x128_S51380224 : S401408x128.ShapeCasts S51380224
  shapeCasts_S51380224_S64x256x56x56 : S51380224.ShapeCasts S64x256x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S401408x128.size a
  hwx0_0 : ∀ i : grid0.Coords, EltTy.bits .f32 = 32 ∨ (Rect.block (s := S401408x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S401408x128.size a
  hwx0_1 : ∀ i : grid0.Coords, EltTy.bits .f32 = 32 ∨ (Rect.block (s := S401408x128) S8192x128.size (cc0_transform_1 i) (hinb0_1 i)).WholeWords (EltTy.packing .f32)

variable [Facts₀]

abbrev win0_0 : Pipeline.Window sig grid0 :=
  Pipeline.Window.ofSpec (Memref.whole main_v1) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8192x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S64x256x56x56 : Shape := ⟨4, ![64, 256, 56, 56]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S_, .f32⟩
  | .hbm, ⟨2, _⟩ => ⟨S64x256x56x56, .f32⟩
  | .hbm, ⟨3, _⟩ => ⟨S64x256x56x56, .f32⟩
  | .hbm, ⟨4, _⟩ => ⟨S_, .f32⟩
  | .hbm, ⟨5, _⟩ => ⟨S64x256x56x56, .f32⟩
  | .hbm, ⟨6, _⟩ => ⟨S64x256x56x56, .f32⟩
  | .hbm, ⟨7, _⟩ => ⟨S64x256x56x56, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64x256x56x56, .f32⟩
  | .hbm, ⟨12, _⟩ => ⟨S64x256x56x56, .f32⟩
  | .hbm, ⟨13, _⟩ => ⟨S_, .f32⟩
  | .hbm, ⟨14, _⟩ => ⟨S64x256x56x56, .f32⟩
  | .hbm, ⟨15, _⟩ => ⟨S64x256x56x56, .f32⟩
  | .hbm, ⟨16, _⟩ => ⟨S_, .f32⟩
  | .hbm, ⟨17, _⟩ => ⟨S64x256x56x56, .f32⟩
  | .hbm, ⟨18, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_cst_3 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  bcast_S_S64x256x56x56 : S_.BroadcastsInDim S64x256x56x56 (![] : Fin 0 → Fin S64x256x56x56.rank)

variable [Facts₀]

class Facts : Prop extends Facts₀ where

variable [Facts]
-- ==== Proof.Quant.lean ====
/-
  Fixed-point quantization of one extended real, and the one law the two programs differ by.

  Both programs send an entry `x` to `clip(⌊s + 1/2⌋, -128, 127) · (1/16)`: scale, round half up (the floor of the
  sum with one half), saturate to the signed 8-bit range, scale back. They differ only in how the scaled value `s`
  is reached: one MULTIPLIES by 16, the other DIVIDES by 1/16. Both constants are powers of two, so their patterns
  denote exactly 16 and 1/16, and on the extended reals a quotient by a nonzero real is the product with its
  reciprocal at every point, the two infinities included: `x / (1/16) = x · 16` with no side condition on `x`.
-/
import Idealize.ShloMosaic.PureOps.Ideal

noncomputable section

namespace Cert.Quant

open Idealize.ShloMosaic

/-- The pattern of `16.0` (exponent 4, zero fraction) denotes the real 16. -/
theorem ofBits_16 : Ideal.ofBits .f32 0x41800000#32 = ((16 : ℝ) : EReal) := by
  simp [Ideal.ofBits, Ideal.ieee, -EReal.coe_mul]; norm_num

/-- The pattern of `0.0625` (exponent -4, zero fraction) denotes the real 1/16. -/
theorem ofBits_16th : Ideal.ofBits .f32 0x3D800000#32 = ((1 / 16 : ℝ) : EReal) := by
  simp [Ideal.ofBits, Ideal.ieee, -EReal.coe_mul]; norm_num

/-- The quantizer on one extended real: `min(127, max(-128, ⌊x · 16 + 1/2⌋)) · (1/16)`, the constants kept as the
    patterns both programs spell (only 16 and 1/16 are ever evaluated, and only to relate them). -/
def quant (x : EReal) : EReal :=
  min (Ideal.ofBits .f32 0x42FE0000#32)
      (max (Ideal.ofBits .f32 0xC3000000#32)
        (Ideal.liftRound Int.floor (x * Ideal.ofBits .f32 0x41800000#32 + Ideal.ofBits .f32 0x3F000000#32)))
    * Ideal.ofBits .f32 0x3D800000#32

/-- Dividing by 1/16 is multiplying by 16, on every extended real. -/
theorem div_16th (x : EReal) :
    Ideal.div x (Ideal.ofBits .f32 0x3D800000#32) = x * Ideal.ofBits .f32 0x41800000#32 := by
  rw [ofBits_16th, ofBits_16, Ideal.div_coe (by norm_num : (1 / 16 : ℝ) ≠ 0)]
  norm_num

end Cert.Quant

end
-- ==== Proof.LibMapReshape.lean ====
/-
  A pointwise map applied between two reshapes and the two reshapes back is the map itself.

  A reshape keeps the elements in row-major order under another shape, so it is precomposition with a bijection of
  index sets; a pointwise map is postcomposition. The two commute, and a reshape followed by the reshape back is the
  identity. So flattening an array, regrouping it, mapping every entry by `f`, and undoing the regrouping and the
  flattening gives `f` of every entry of the original array — whatever the three shapes are.
-/
import Idealize.ShloMosaic.Lib.Pipeline.Value

namespace Cert.LibMapReshape

open Idealize.ShloMosaic

/-- A reshape commutes with a pointwise map: both read the operand at the index with the same row-major position. -/
theorem shapeCast_map {s t : Shape} {α β : Type} (f : α → β) (x : s.Idx → α) (h : s.ShapeCasts t) :
    shapeCast t (fun j => f (x j)) h = fun i => f (shapeCast t x h i) := rfl

/-- Reshape `a → b → c`, map every entry by `f`, reshape `c → b → a`: the result is `f` of every entry of the
    array one started from. -/
theorem map_between_reshapes {a b c : Shape} {α β : Type} (f : α → β) (x : a.Idx → α)
    (hab : a.ShapeCasts b) (hbc : b.ShapeCasts c) (hcb : c.ShapeCasts b) (hba : b.ShapeCasts a) :
    shapeCast a (shapeCast b (fun j => f (shapeCast c (shapeCast b x hab) hbc j)) hcb) hba = fun i => f (x i) := by
  show (fun i => f (shapeCast a (shapeCast b (shapeCast c (shapeCast b x hab) hbc) hcb) hba i)) = _
  rw [shapeCast_shapeCast (shapeCast b x hab) hbc hcb, shapeCast_shapeCast x hab hba]

end Cert.LibMapReshape
-- ==== Proof.KernelValue.lean ====
/-
  What the kernel leaves in its result, entry by entry.

  The kernel views the rank-4 argument as 401408 rows of 128 lanes (flatten, then regroup: row-major order is kept),
  cuts the rows into 49 blocks of 8192 rows, and at grid point `t` reads block `t`, applies the quantizer to every
  entry, and writes the result back as block `t` of the output rows. The body is pointwise, so what point `t` writes
  is block `t` of ONE function of the whole row array: the quantizer of each entry. The 49 blocks tile the rows (row
  `r` lies in block `r / 8192`), so after the run the row array is that function everywhere. The two reshapes after the
  region undo the regrouping and the flattening, and a pointwise map between a reshape chain and the chain back is the
  map itself: the result is the quantizer of every entry of the argument.
-/
import proofs.«143975_j64450279244128_2_alg».proof.Proof.Gen.KernelIdeal.Frame
import proofs.«143975_j64450279244128_2_alg».proof.Proof.Quant
import proofs.«143975_j64450279244128_2_alg».proof.Proof.LibMapReshape
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The body at an entry -/

/-- The body's one store covers its whole block from the origin. -/
theorem origin : (![0, 0] : Fin 2 → Nat) = fun _ => 0 := funext fun a => by fin_cases a <;> rfl

/-- The body's stored value at an entry of the block is the quantizer of the loaded block's entry there: every
    operation of the body is pointwise or the splat of a constant, and its one shape cast keeps the shape. -/
theorem pay_apply (x0 : Vec Ideal S8192x128 .f32) (j : S8192x128.Idx) :
    k0_pay1 x0 j = Cert.Quant.quant (x0 j) := by
  unfold k0_pay1
  simp only [shapeCast_self]
  rfl

/-! ## The row array after the run -/

/-- The rows as the quantizer maps them: the output row array as one function of the input row array. -/
def rowsQ (c : Dev nD) : S401408x128.Idx → EReal := fun j => Cert.Quant.quant (V m c main_v1 j)

/-- The two windows move together: at point `t` both sit at row block `t`'s index and lane block 0, decided over
    the 49 points. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) ≤ 48
    ∧ win0_1.index t (1 : Fin 2) = 0 :=
  (by decide +kernel : ∀ t : Fin grid0.N, _)

/-- Every one of the 49 row blocks is some point's. -/
theorem idx_onto : ∀ (q0 : Fin 49) (q1 : Fin 1), ∃ t : Fin cfg0.N, win0_1.index t = ![q0.val + 0, q1.val + 0] :=
  (by decide +kernel : ∀ (q0 : Fin 49) (q1 : Fin 1), ∃ t : Fin grid0.N, win0_1.index t = ![q0.val + 0, q1.val + 0])

/-- What point `t` writes back is block `t` of the quantized rows. -/
theorem flushed_eq (c : Dev nD) (t : Fin cfg0.N) :
    (dats m 0 c).flushed 1 t = ((cfg0.win 1).blk t).view.read (Elt Ideal) (rowsQ m c) := by
  show (cfg0.win 1).cut (grid0.coords t) ((dats m 0 c).after 1 t) = _
  rw [after0_1]
  unfold out0_1
  rw [View.canon_unit_zero origin]
  simp only [View.ld_unit_zero (S := S8192x128) origin]
  obtain ⟨e0, e1, e2, e3⟩ := idx_facts t
  funext j
  refine (pay_apply (iblk m c 0 t) j).trans ?_
  show Cert.Quant.quant (V m c main_v1 (((cfg0.win 0).blk t).view.emb j)) = Cert.Quant.quant (V m c main_v1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8192 + 1 * (j 0).val = win0_1.index t (0 : Fin 2) * 8192 + 1 * (j 0).val; omega
    | ⟨1, _⟩ => show win0_0.index t (1 : Fin 2) * 128 + 1 * (j 1).val = win0_1.index t (1 : Fin 2) * 128 + 1 * (j 1).val; omega
  rw [h0]

/-- A row-array index is in point `t`'s block iff each coordinate is in the block's range on its axis. -/
theorem mem_blk (t : Fin cfg0.N) (i : S401408x128.Idx) :
    i ∈ ((cfg0.win 1).blk t).view.set ↔ ∀ a : Fin 2, win0_1.index t a * S8192x128.size a ≤ (i a).val ∧ (i a).val < win0_1.index t a * S8192x128.size a + S8192x128.size a := by
  show i ∈ ((View.whole main_v2).slice (win0_1.rect t)).set ↔ _
  rw [View.set_slice_whole, Rect.mem_set_unit]
  exact Iff.rfl

/-- The blocks tile the rows: row `r` lies in the block of index `r / 8192`, and every lane in the one lane block. -/
theorem cover (i : S401408x128.Idx) :
    ∃ t : Fin cfg0.N, (cfg0.win 1).flush t = true ∧ i ∈ ((cfg0.win 1).blk t).view.set := by
  have hi0 : (i 0).val < 401408 := (i 0).isLt
  have hi1 : (i 1).val < 128 := (i 1).isLt
  obtain ⟨t, ht⟩ := idx_onto ⟨(i 0).val / 8192, by omega⟩ ⟨(i 1).val / 128, by omega⟩
  have q0 : win0_1.index t (0 : Fin 2) = (i 0).val / 8192 + 0 := congrFun ht 0
  have q1 : win0_1.index t (1 : Fin 2) = (i 1).val / 128 + 0 := congrFun ht 1
  refine ⟨t, flush0_1 t, ?_⟩
  rw [mem_blk]
  intro a
  match a with
  | ⟨0, _⟩ => show win0_1.index t (0 : Fin 2) * 8192 ≤ (i 0).val ∧ (i 0).val < win0_1.index t (0 : Fin 2) * 8192 + 8192; omega
  | ⟨1, _⟩ => show win0_1.index t (1 : Fin 2) * 128 ≤ (i 1).val ∧ (i 1).val < win0_1.index t (1 : Fin 2) * 128 + 128; omega

/-- The output row array after the run is the quantized rows. -/
theorem rows_final (c : Dev nD) : (dats m 0 c).arrAt 1 cfg0.N = rowsQ m c :=
  (dats m 0 c).arrAt_eq_of_cover 1 (rowsQ m c) (fun t _ => flushed_eq m c t) cover

/-! ## Around the region -/

/-- The input row array, as the region finds it, is the argument flattened and regrouped into rows of 128. -/
theorem V_main_v1 (c : Dev nD) :
    (V m c main_v1 : S401408x128.Idx → EReal)
      = shapeCast S401408x128 (shapeCast S51380224 (m ((c : Thread nD τ).loc main_arg0)) shapeCasts_S64x256x56x56_S51380224) shapeCasts_S51380224_S401408x128 := by
  show StableHlo.after hostOps0 (fun b => m (c, b)) (Proc.devRef .tc main_v1) = _
  after_results
  rfl

/-- The region leaves the output row array at the quantized rows. -/
theorem rows_after (c : Dev nD) :
    Pipeline.withArrays (cfgs 0).spec c (V0 m c) (fun w => (dats m 0 c).arrAt w (cfgs 0).N) (Proc.devRef .tc main_v2)
      = rowsQ m c :=
  (Pipeline.withArrays_arr spec0 launch0.win.arr_inj c _ _ 1).trans (rows_final m c)

/-- The program's result, after the two reshapes that follow the region, is the quantizer of every entry of the
    argument: the quantized rows are a pointwise map between the reshapes before the region and the reshapes back. -/
theorem result_eq (c : Dev nD) :
    Pipeline.afterTail₀ cfgs (dats m) 0 (V0 m) [hostOps1] c main_v4
      = fun i => Cert.Quant.quant (m ((c : Thread nD τ).loc main_arg0) i) := by
  unfold Pipeline.afterTail₀
  show StableHlo.after hostOps1 _ (Proc.devRef .tc main_v4) = _
  after_results
  rw [rows_after]
  unfold rowsQ
  rw [V_main_v1]
  exact Cert.LibMapReshape.map_between_reshapes Cert.Quant.quant (m ((c : Thread nD τ).loc main_arg0))
    shapeCasts_S64x256x56x56_S51380224 shapeCasts_S51380224_S401408x128 shapeCasts_S401408x128_S51380224
    shapeCasts_S51380224_S64x256x56x56

/-! ## The run, read -/

/-- Every weakly fair execution of the kernel's program terminates with the result at the quantizer of every entry of
    the argument, and the argument unchanged: the frame run, its post read at the result (which the lines after the
    region write) and at the argument (which no line writes). -/
theorem run : θ_run defs (onTc (τ := τ) (main (F := Ideal))) ⟨m, fun _ => 0, ρ⟩ fun r => ∀ c : Dev nD,
      r.2.mem ((c : Thread nD τ).loc main_v4) = (fun i => Cert.Quant.quant (m ((c : Thread nD τ).loc main_arg0) i))
      ∧ r.2.mem ((c : Thread nD τ).loc main_arg0) = m ((c : Thread nD τ).loc main_arg0) :=
  (θ_run defs _ _).mono (fun r h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c)⟩)
    (run_main m ρ)

end Cert.KernelIdeal.KValue

end
-- ==== Proof.RefValue.lean ====
/-
  The reference, entry by entry, is the quantizer.

  Every operation of the reference is pointwise or the broadcast of a scalar constant, so its result at an index
  `i` depends on the argument at `i` alone: `min(127, max(-128, ⌊x / (1/16) + 1/2⌋)) · (1/16)`. Its quotient by
  1/16 is the product with 16, which makes it the quantizer of `Quant`.
-/
import proofs.«143975_j64450279244128_2_alg».proof.Proof.Gen.ReferenceIdeal.Read
import proofs.«143975_j64450279244128_2_alg».proof.Proof.Quant

noncomputable section

namespace Cert.ReferenceIdeal.RefValue

open Cert.ReferenceIdeal Cert.ReferenceIdeal.Gen Cert.ReferenceIdeal.Read Idealize.ShloMosaic

/-- The reference's last stage at an index is the quantizer of the argument at that index. -/
theorem ref_apply (x : S64x256x56x56.Idx → EReal) (i : S64x256x56x56.Idx) :
    val_main_v7 (F := Ideal) x i = Cert.Quant.quant (x i) := by
  rw [val_main_v7_apply, val_main_v5_apply, val_main_call0_v4_apply, val_main_call0_v3_apply, val_main_cst_2_apply,
    val_main_call0_v2_apply, val_main_call0_v1_apply, val_main_call0_v0_apply, val_main_cst_1_apply,
    val_main_v4_apply, val_main_v3_apply, val_main_v1_apply, val_main_v0_apply, val_main_cst_apply,
    val_main_v2_apply, val_main_cst_0_apply, val_main_v6_apply, val_main_cst_3_apply]
  simp only [Ideal.mulf_def, Ideal.minimumf_def, Ideal.maximumf_def, Ideal.hostUnary_floor_def, Ideal.addf_def,
    Ideal.hostDivf_def, Ideal.ofBits_def, Cert.Quant.div_16th]
  rfl

/-- The reference's result array is the quantizer applied to every entry of its argument. -/
theorem ref_eq (x : S64x256x56x56.Idx → EReal) :
    val_main_v7 (F := Ideal) x = fun i => Cert.Quant.quant (x i) :=
  funext (ref_apply x)

end Cert.ReferenceIdeal.RefValue

end
-- ==== Proof.lean ====
/-
  Saturating fixed-point quantization, tiled by rows, against its plain reference, over the extended reals.

  Both programs send every entry `x` of a rank-4 array to `min(127, max(-128, ⌊s + 1/2⌋)) · (1/16)`, where the
  reference's scaled value is `s = x / (1/16)` and the kernel's is `s = x · 16`. The two agree on every extended
  real (`Quant.div_16th`), so no finiteness of the input is used.

  The kernel flattens the array, regroups it into rows of 128 lanes, maps the rows block by block (49 blocks of 8192
  rows, one per grid point, each written back where it was read), and undoes the regrouping and the flattening. Because
  the map is pointwise, each block written is a block of one function of the row array; the blocks tile the rows; and a
  pointwise map between reshapes and the reshapes back is the map itself (`KernelValue`). The reference is read one
  operation at a time at an index (`RefValue`). Both results are therefore the same function of the argument, and the
  two runs are stated with that one term.

  The kernel's idealization rewrote no operation, so there is nothing to preserve beyond the program's own text. The
  frames of the two kernel programs are their generated frame runs; the reference has no kernel, and its frame is its
  run with the result forgotten.
-/
import proofs.«143975_j64450279244128_2_alg».proof.Defs
import proofs.«143975_j64450279244128_2_alg».proof.Proof.Gen.Kernel
import proofs.«143975_j64450279244128_2_alg».proof.Proof.Gen.Kernel.Skeleton
import proofs.«143975_j64450279244128_2_alg».proof.Proof.Gen.Kernel.Launch
import proofs.«143975_j64450279244128_2_alg».proof.Proof.Gen.Kernel.Points
import proofs.«143975_j64450279244128_2_alg».proof.Proof.Gen.Kernel.Frame
import proofs.«143975_j64450279244128_2_alg».proof.Proof.Gen.KernelIdeal
import proofs.«143975_j64450279244128_2_alg».proof.Proof.Gen.KernelIdeal.Skeleton
import proofs.«143975_j64450279244128_2_alg».proof.Proof.Gen.KernelIdeal.Launch
import proofs.«143975_j64450279244128_2_alg».proof.Proof.Gen.KernelIdeal.Points
import proofs.«143975_j64450279244128_2_alg».proof.Proof.Gen.KernelIdeal.Frame
import proofs.«143975_j64450279244128_2_alg».proof.Proof.Gen.ReferenceIdeal
import proofs.«143975_j64450279244128_2_alg».proof.Proof.Gen.ReferenceIdeal.Run
import proofs.«143975_j64450279244128_2_alg».proof.Proof.Gen.ReferenceIdeal.Read
import proofs.«143975_j64450279244128_2_alg».proof.Proof.Gen.Pre_finite_inputs
import proofs.«143975_j64450279244128_2_alg».proof.Proof.Quant
import proofs.«143975_j64450279244128_2_alg».proof.Proof.KernelValue
import proofs.«143975_j64450279244128_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its argument as launched: its generated frame run. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its argument as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument, both programs end with the quantizer of every entry of the argument:
    the kernel by its run read through the tiling and the reshapes, the reference by its operations read at an index. -/
theorem algebraic : Cert.algebraic_KernelIdeal_ReferenceIdeal := by
  intro m ρ m' ρ' _ hagree
  refine ⟨fun c => fun i => Cert.Quant.quant (m ((c : Thread Cert.KernelIdeal.nD Cert.KernelIdeal.τ).loc Cert.KernelIdeal.main_arg0) i),
    Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.ref_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
